-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_arg5 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S8192x16 : Shape := ⟨2, ![8192, 16]⟩
abbrev S1024x1024 : Shape := ⟨2, ![1024, 1024]⟩
abbrev S1024x16 : Shape := ⟨2, ![1024, 16]⟩
abbrev S1x1024 : Shape := ⟨2, ![1, 1024]⟩

abbrev nBuf : Space → Nat
  | .hbm => 18
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S8192x4096, .f32⟩
  | .hbm, ⟨7, _⟩ => ⟨S4096, .f32⟩
  | .hbm, ⟨8, _⟩ => ⟨S1x4096, .f32⟩
  | .hbm, ⟨9, _⟩ => ⟨S8192x4096, .bf16⟩
  | .hbm, ⟨10, _⟩ => ⟨S4096x4096, .bf16⟩
  | .hbm, ⟨11, _⟩ => ⟨S4096x16, .bf16⟩
  | .hbm, ⟨12, _⟩ => ⟨S16x4096, .bf16⟩
  | .hbm, ⟨13, _⟩ => ⟨S4096x16, .bf16⟩
  | .hbm, ⟨14, _⟩ => ⟨S8192x16, .f32⟩
  | .hbm, ⟨15, _⟩ => ⟨S8192x16, .bf16⟩
  | .hbm, ⟨16, _⟩ => ⟨S8192x4096, .f32⟩
  | .hbm, ⟨17, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S1024x16, .bf16⟩
  | .local _ .vmem, ⟨7, _⟩ => ⟨S1024x16, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  transposes_S16x4096_S4096x16_1_0 : S16x4096.Transposes [1, 0] S4096x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S8192x4096_S4096x16_S8192x16_1_0_0_1_n_n_wf : DotDims.WF S8192x4096 S4096x16 S8192x16 [1] [0] [0] [1] [] []
  dot_S1024x1024_S1024x1024_S1024x1024_1_1_0_0_n_n_wf : DotDims.WF S1024x1024 S1024x1024 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .bf16 = 32 ∨ (Rect.block (s := S4096x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S4x2048x4096, .f32⟩
  | .hbm, ⟨7, _⟩ => ⟨S4x2048x16, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.LibTileSum.lean ====
/-
  A sum over the rows of an array taken tile by tile: for N = T * R, the sum over all N rows is the sum over the T
  tiles of the sum over the R rows of each tile, row R * t + r being row r of tile t. Only commutativity and
  associativity of the addition are used, so the law holds in any commutative additive monoid (the extended reals
  included, infinities and all).
-/
import Mathlib.Algebra.BigOperators.Fin
import Mathlib.Logic.Equiv.Fin.Basic

namespace Cert.Lib.TileSum

open Finset

theorem row_lt {T R N : ℕ} (hN : T * R = N) (t : Fin T) (r : Fin R) : R * t.val + r.val < N := by
  have h1 : R * t.val + r.val < R * (t.val + 1) := by
    rw [Nat.mul_succ]; exact Nat.add_lt_add_left r.isLt _
  have h2 : R * (t.val + 1) ≤ R * T := Nat.mul_le_mul_left _ t.isLt
  rw [← hN, Nat.mul_comm T R]; exact lt_of_lt_of_le h1 h2

/-- The sum over N = T * R indices is the sum over T tiles of the sum over the R indices of each tile. -/
theorem sum_tiles {M : Type*} [AddCommMonoid M] (T R N : ℕ) (hN : T * R = N) (f : Fin N → M) :
    ∑ k : Fin N, f k = ∑ t : Fin T, ∑ r : Fin R, f ⟨R * t.val + r.val, row_lt hN t r⟩ := by
  subst hN
  rw [← (finProdFinEquiv (m := T) (n := R)).sum_comp, Fintype.sum_prod_type]
  refine Finset.sum_congr rfl fun t _ => Finset.sum_congr rfl fun r _ => ?_
  refine congrArg f (Fin.ext ?_)
  show r.val + R * t.val = R * t.val + r.val
  exact Nat.add_comm _ _

end Cert.Lib.TileSum
-- ==== Proof.LoraSpec.lean ====
/-
  A linear layer with a rank-16 correction, as one function of its six arguments over the extended reals.

  For an input x [4, 2048, 4096], a weight W [4096, 4096], a down projection A [16, 4096], an up projection
  B [4096, 16] and two bias vectors b, b' [4096], the result at (s, t, o) is

      ( ∑ k, x (s,t,k) · W (o,k)  +  one · ∑ r, (∑ k, x (s,t,k) · A (r,k)) · B (o,r) )  +  (b o + b' o),

  where one is the scale factor as both programs spell it (a float literal, never evaluated here).
  The long sum over the 4096 input features may be taken in four tiles of 1024 features, accumulated from zero
  in tile order: only commutativity and associativity of the addition are used, so the law holds on the extended
  reals, infinities included, and no finiteness of the inputs is needed.
-/
import Idealize.ShloMosaic.PureOps.Ideal.Laws
import Idealize.ShloMosaic.Lib.ValueIdx
import proofs.«134948_j39324720562826_2_alg».proof.Proof.LibTileSum

noncomputable section

namespace Cert.Lora

open Idealize.ShloMosaic Idealize.ShloMosaic.ValueIdx

abbrev SX : Shape := ⟨3, ![4, 2048, 4096]⟩
abbrev SW : Shape := ⟨2, ![4096, 4096]⟩
abbrev SA : Shape := ⟨2, ![16, 4096]⟩
abbrev SB : Shape := ⟨2, ![4096, 16]⟩
abbrev SV : Shape := ⟨1, ![4096]⟩
abbrev SX2 : Shape := ⟨2, ![8192, 4096]⟩
abbrev SXA : Shape := ⟨2, ![8192, 16]⟩
abbrev SBias : Shape := ⟨2, ![1, 4096]⟩

/-- The scale factor, as both programs write it. -/
abbrev one : EReal := Ideal.ofBits .f32 0x3F800000#32

/-- Row `n` of the flattened input is row `n % 2048` of batch `n / 2048`. -/
abbrev rowOf (n : Fin 8192) (k : Fin 4096) : SX.Idx :=
  ix3 (⟨n.val / 2048, by have := n.isLt; omega⟩ : Fin 4) (⟨n.val % 2048, Nat.mod_lt _ (by decide)⟩ : Fin 2048) k

/-- The layer on the flattened rows: entry (n, o) from the flattened input `X`, the weight, the projected input
    `XA` (n, r), the up projection and the summed bias (as a one-row matrix). -/
def flat (X : SX2.Idx → EReal) (W : SW.Idx → EReal) (XA : SXA.Idx → EReal) (B : SB.Idx → EReal)
    (bias : SBias.Idx → EReal) : SX2.Idx → EReal :=
  fun j => (∑ k : Fin 4096, X (ix2 (j 0) k) * W (ix2 (j 1) k)
      + one * ∑ r : Fin 16, XA (ix2 (j 0) r) * B (ix2 (j 1) r)) + bias (ix2 (0 : Fin 1) (j 1))

/-- The layer, entry (s, t, o), from the six arguments. -/
def layer (x : SX.Idx → EReal) (W : SW.Idx → EReal) (b : SV.Idx → EReal) (A : SA.Idx → EReal) (B : SB.Idx → EReal)
    (b' : SV.Idx → EReal) : SX.Idx → EReal :=
  fun i => (∑ k : Fin 4096, x (ix3 (i 0) (i 1) k) * W (ix2 (i 2) k)
      + one * ∑ r : Fin 16, (∑ k : Fin 4096, x (ix3 (i 0) (i 1) k) * A (ix2 r k)) * B (ix2 (i 2) r))
    + (b (ix1 (i 2)) + b' (ix1 (i 2)))

/-- The flattened layer over the flattened arguments is the layer at the row's batch and position. -/
theorem flat_eq_layer (x : SX.Idx → EReal) (W : SW.Idx → EReal) (b : SV.Idx → EReal) (A : SA.Idx → EReal)
    (B : SB.Idx → EReal) (b' : SV.Idx → EReal) (n : Fin 8192) (o : Fin 4096) :
    flat (fun j => x (rowOf (j 0) (j 1))) W (fun j => ∑ k : Fin 4096, x (rowOf (j 0) k) * A (ix2 (j 1) k)) B
        (fun j => b (ix1 (j 1)) + b' (ix1 (j 1))) (ix2 n o)
      = layer x W b A B b' (rowOf n o) := rfl

/-- Feature `1024 · t + q`, the `q`-th of tile `t`. -/
abbrev feat (t : Fin 4) (q : Fin 1024) : Fin 4096 :=
  ⟨1024 * t.val + q.val, Cert.Lib.TileSum.row_lt (T := 4) (R := 1024) (N := 4096) rfl t q⟩

/-- Row `1024 · i + p`, the `p`-th of row tile `i`. -/
abbrev rowAt (i : Fin 8) (p : Fin 1024) : Fin 8192 :=
  ⟨1024 * i.val + p.val, Cert.Lib.TileSum.row_lt (T := 8) (R := 1024) (N := 8192) rfl i p⟩

/-- A sum over the 4096 features is the four tile sums accumulated from zero in tile order. -/
theorem tiles_from_zero {M : Type*} [AddCommMonoid M] (f : Fin 4096 → M) :
    (((0 + ∑ q : Fin 1024, f (feat 0 q)) + ∑ q : Fin 1024, f (feat 1 q)) + ∑ q : Fin 1024, f (feat 2 q))
        + ∑ q : Fin 1024, f (feat 3 q)
      = ∑ k : Fin 4096, f k := by
  rw [Cert.Lib.TileSum.sum_tiles 4 1024 4096 rfl f, Fin.sum_univ_four, zero_add]

/-- Entry (p, q) of output tile (i, j), as a tiled computation leaves it — the four feature-tile partial products
    accumulated from zero, then the scaled low-rank term and the bias entry — is the flattened layer at row
    `1024 · i + p`, column `1024 · j + q`. -/
theorem flat_tiles (X : SX2.Idx → EReal) (W : SW.Idx → EReal) (XA : SXA.Idx → EReal) (B : SB.Idx → EReal)
    (bias : SBias.Idx → EReal) (i : Fin 8) (j : Fin 4) (p q : Fin 1024) :
    ((((0 + ∑ k : Fin 1024, X (ix2 (rowAt i p) (feat 0 k)) * W (ix2 (feat j q) (feat 0 k)))
          + ∑ k : Fin 1024, X (ix2 (rowAt i p) (feat 1 k)) * W (ix2 (feat j q) (feat 1 k)))
          + ∑ k : Fin 1024, X (ix2 (rowAt i p) (feat 2 k)) * W (ix2 (feat j q) (feat 2 k)))
          + ∑ k : Fin 1024, X (ix2 (rowAt i p) (feat 3 k)) * W (ix2 (feat j q) (feat 3 k))
        + one * ∑ r : Fin 16, XA (ix2 (rowAt i p) r) * B (ix2 (feat j q) r))
      + bias (ix2 (0 : Fin 1) (feat j q))
      = flat X W XA B bias (ix2 (rowAt i p) (feat j q)) := by
  rw [tiles_from_zero (fun k => X (ix2 (rowAt i p) k) * W (ix2 (feat j q) k))]
  rfl

end Cert.Lora

end
-- ==== Proof.RefSide.lean ====
/-
  The reference program's result, read index by index, is the layer function of its six arguments.

  The reference contracts the input's feature axis with the weight's, projects the input down to rank 16 and up
  again, scales the low-rank term by the literal one, and adds the broadcast sum of the two bias vectors, in that
  order of additions: exactly the spelling of `Cert.Lora.layer`.
-/
import proofs.«134948_j39324720562826_2_alg».proof.Proof.Gen.ReferenceIdeal.Read
import proofs.«134948_j39324720562826_2_alg».proof.Proof.LoraSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

theorem ref_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) (x5 : (⟨S4096, .f32⟩ : BufTy).Contents (Elt Ideal)) :
    val_main_v9 (F := Ideal) x0 x1 x2 x3 x4 x5 = Cert.Lora.layer x0 x1 x2 x3 x4 x5 := by
  funext i
  have l0 : ∀ k, lidx_main_v0 i k = ix3 (i 0) (i 1) k := fun k => funext fun a => Fin.ext (by
    match a with | ⟨0, _⟩ => rfl | ⟨1, _⟩ => rfl | ⟨2, _⟩ => rfl)
  have r0 : ∀ k, ridx_main_v0 i k = ix2 (i 2) k := fun k => funext fun a => Fin.ext (by
    match a with | ⟨0, _⟩ => rfl | ⟨1, _⟩ => rfl)
  have l1 : ∀ (r : Fin 16) k, lidx_main_v1 (lidx_main_v2 i r) k = ix3 (i 0) (i 1) k := fun r k => funext fun a => Fin.ext (by
    match a with | ⟨0, _⟩ => rfl | ⟨1, _⟩ => rfl | ⟨2, _⟩ => rfl)
  have r1 : ∀ (r : Fin 16) k, ridx_main_v1 (lidx_main_v2 i r) k = ix2 r k := fun r k => funext fun a => Fin.ext (by
    match a with | ⟨0, _⟩ => rfl | ⟨1, _⟩ => rfl)
  have r2 : ∀ r, ridx_main_v2 i r = ix2 (i 2) r := fun r => funext fun a => Fin.ext (by
    match a with | ⟨0, _⟩ => rfl | ⟨1, _⟩ => rfl)
  have b8 : idx_main_v7 (idx_main_v8 i) = ix1 (i 2) := funext fun a => Fin.ext (by
    match a with | ⟨0, _⟩ => rfl)
  rw [val_main_v9_apply, val_main_v5_apply, val_main_v0_apply, val_main_v4_apply, val_main_v3_apply,
    val_main_cst_apply, val_main_v2_apply, val_main_v8_apply, val_main_v7_apply, val_main_v6_apply]
  simp only [val_main_v1_apply, l0, r0, l1, r1, r2, b8, Ideal.addf_def, Ideal.mulf_def, Ideal.ofBits_def]
  rfl

end Cert.ReferenceIdeal.RefValue

end
-- ==== Proof.Pieces.lean ====
/-
  What the kernel body leaves behind at each grid point, as values.

  The grid is (row tile i, column tile j, feature tile k) with k innermost; a point's position is
  16·i + 4·j + k. The body keeps a [1024, 1024] accumulator in scratch memory across the four feature tiles
  of one (i, j): at k = 0 it is zeroed and the first partial product is added; at k = 1, 2 the next partial
  product is added to what the previous point left; at k = 3 the last partial product is added and the
  output tile is written from the accumulator, the low-rank product and the bias row.
  Here each of those found results is identified with the body's arithmetic as one pure term of the loaded
  blocks, for any float interpretation.
-/
import proofs.«134948_j39324720562826_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- Feature tiles 1 and 2: the accumulator becomes the previous contents plus this tile's partial product. -/
theorem scr_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i)
    (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    sout0_B_0 c i a3 h3 a4 h4 a5 h5 a6 h6 a7 h7 a8 h8 a9 h9 hc0 hc1 x0 x1 x2 x3 x4 xs0 = k0_pay2 xs0 x0 x1 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  rw [View.canon_unit_zero hz]
  simp only [View.readAt_eq_ld, h9.read_unread, h3.read_unread, h4.read_unread, View.ld_unit_zero (S := S1024x1024) hz]

/-- Feature tile 0: the accumulator is zeroed, read back, and the first partial product added. -/
theorem scr_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i)
    (x0 : Vec F S1024x1024 .bf16) (x1 : Vec F S1024x1024 .bf16) (x2 : Vec F S1024x16 .bf16) (x3 : Vec F S1024x16 .bf16) (x4 : Vec F S1x1024 .f32) :
    sout0_A_0 c i a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Feature tile 3, the accumulator: as at tiles 1 and 2. -/
theorem scr_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    sout0_C_0 c i a3 h3 a4 h4 a5 h5 a6 h6 a7 h7 a8 h8 a9 h9 hc0 hc1 x0 x1 x2 x3 x4 xs0 = k0_pay2 xs0 x0 x1 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h9.read_unread, h3.read_unread, h4.read_unread, View.ld_unit_zero (S := S1024x1024) hz]

/-- Feature tile 3, the output tile: the epilogue over the accumulator just updated. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    out0_C_5 c i a3 h3 a4 h4 a5 h5 a6 h6 a7 h7 a8 h8 a9 h9 hc0 hc1 x0 x1 x2 x3 x4 xs0 = k0_pay3 x2 x3 (k0_pay2 xs0 x0 x1) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz, View.readCov_unit_zero (S := S1024x1024) _ hz]
  simp only [View.readAt_eq_ld, h9.read_unread, h3.read_unread, h4.read_unread, h5.read_unread, h6.read_unread,
    h7.read_unread, View.ld_unit_zero (S := S1024x1024) hz, View.ld_unit_zero (S := S1024x16) hz,
    View.ld_unit_zero (S := S1x1024) hz]

/-! ## The accumulator and the output tile, point by point -/

variable (m : (ℓ : Loc nD τ sig) → Buf (Elt F) ℓ)

/-- One accumulation step: the partial product of the point's two [1024, 1024] blocks added to `acc`. -/
abbrev step (c : Dev nD) (t : Fin cfg0.N) (acc : Vec F S1024x1024 .f32) : Vec F S1024x1024 .f32 :=
  k0_pay2 acc (iblk m c 0 t) (iblk m c 1 t)

/-- At a point of feature tile 0 the accumulator ends at the step from zero. -/
theorem acc_first (c : Dev nD) (t : Fin cfg0.N) (h0 : t.val % 4 = 0) :
    (outsAt0 m c t.val t.isLt).2 = step m c t (k0_pay1 (F := F)) := by
  have h1 : ¬t.val % 4 = 3 := by omega
  rw [outsAt0_A m c t h0 h1]
  dsimp only
  rw [scr_A]

/-- At a point of feature tile 1 or 2 it ends at the step from what the point before left. -/
theorem acc_mid (c : Dev nD) (t : Fin cfg0.N) (h0 : ¬t.val % 4 = 0) (h1 : ¬t.val % 4 = 3) :
    (outsAt0 m c t.val t.isLt).2
      = step m c t (outsAt0 m c (t.val - 1) (Nat.lt_of_le_of_lt (Nat.sub_le _ _) t.isLt)).2 := by
  rw [outsAt0_B m c t h0 h1]
  dsimp only
  rw [scr_B]

/-- At a point of feature tile 3 the output tile is the epilogue over the step from what the point before left. -/
theorem out_last (c : Dev nD) (t : Fin cfg0.N) (h0 : ¬t.val % 4 = 0) (h1 : t.val % 4 = 3) :
    (outsAt0 m c t.val t.isLt).1
      = k0_pay3 (iblk m c 2 t) (iblk m c 3 t)
          (step m c t (outsAt0 m c (t.val - 1) (Nat.lt_of_le_of_lt (Nat.sub_le _ _) t.isLt)).2) (iblk m c 4 t) := by
  rw [outsAt0_C m c t h0 h1]
  dsimp only
  rw [out_C]

/-- So the output tile written at position 4·u + 3 is the epilogue over the four steps from zero, in order. -/
theorem out_four (c : Dev nD) (t0 t1 t2 t3 : Fin cfg0.N) (h0 : t0.val % 4 = 0) (e1 : t1.val = t0.val + 1)
    (e2 : t2.val = t0.val + 2) (e3 : t3.val = t0.val + 3) :
    (outsAt0 m c t3.val t3.isLt).1
      = k0_pay3 (iblk m c 2 t3) (iblk m c 3 t3)
          (step m c t3 (step m c t2 (step m c t1 (step m c t0 (k0_pay1 (F := F)))))) (iblk m c 4 t3) := by
  have a0 := acc_first m c t0 h0
  have a1 := acc_mid m c t1 (by omega) (by omega)
  have a2 := acc_mid m c t2 (by omega) (by omega)
  have a3 := out_last m c t3 (by omega) (by omega)
  have pos : ∀ (n n' : ℕ) (h : n < cfg0.N) (h' : n' < cfg0.N), n = n' → outsAt0 m c n h = outsAt0 m c n' h' := by
    intro n n' h h' e; subst e; rfl
  have p1 : ∀ h, (outsAt0 m c (t1.val - 1) h).2 = (outsAt0 m c t0.val t0.isLt).2 :=
    fun h => congrArg Prod.snd (pos _ _ h t0.isLt (by omega))
  have p2 : ∀ h, (outsAt0 m c (t2.val - 1) h).2 = (outsAt0 m c t1.val t1.isLt).2 :=
    fun h => congrArg Prod.snd (pos _ _ h t1.isLt (by omega))
  have p3 : ∀ h, (outsAt0 m c (t3.val - 1) h).2 = (outsAt0 m c t2.val t2.isLt).2 :=
    fun h => congrArg Prod.snd (pos _ _ h t2.isLt (by omega))
  rw [a3, p3, a2, p2, a1, p1, a0]

end Cert.KernelIdeal.Pieces

end
-- ==== Proof.Payload.lean ====
/-
  The body's three stored values read entry by entry at the exact (extended-real) values.

  The reset stores zero. An accumulation step stores, at (p, q), the accumulator's entry plus the dot product of
  row p of the input block with row q of the weight block (both blocks are [1024, 1024], the weight block is used
  transposed). The epilogue stores the accumulator's entry plus the literal one times the rank-16 dot product of
  row p of the projected-input block with row q of the up-projection block, plus the bias row's entry q.
  A change of float format is the identity at these values, and a matrix product into a zero accumulator is the
  plain sum of products.
-/
import proofs.«134948_j39324720562826_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The reset value is zero everywhere. -/
theorem pay1_apply (j : S1024x1024.Idx) : k0_pay1 (F := Ideal) j = 0 := by
  unfold k0_pay1
  simp only [shapeCast_self]
  exact Ideal.ofBits_zero_f32

/-! The operand indices of the two contractions, on the axes that are not contracted: the left operand keeps the
    output's row, the right operand (used transposed) takes the output's column as its row. -/

theorem wide_l0 (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem wide_r0 (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem thin_l0 (j : S1024x1024.Idx) (q : dot_S1024x16_S1024x16_S1024x1024_1_1_0_0_n_n.contr.Idx) : (dot_S1024x16_S1024x16_S1024x1024_1_1_0_0_n_n.lhsIdx j q 0).val = (j 0).val := by
  unfold DotDims.lhsIdx
  rw [dif_neg (show ¬(0 : Fin S1024x16.rank) ∈ dot_S1024x16_S1024x16_S1024x1024_1_1_0_0_n_n.lhsBatch by decide),
    dif_pos (show (0 : Fin S1024x16.rank) ∈ dot_S1024x16_S1024x16_S1024x1024_1_1_0_0_n_n.lhsNonContracting by decide)]
  rfl
theorem thin_r0 (j : S1024x1024.Idx) (q : dot_S1024x16_S1024x16_S1024x1024_1_1_0_0_n_n.contr.Idx) : (dot_S1024x16_S1024x16_S1024x1024_1_1_0_0_n_n.rhsIdx j q 0).val = (j 1).val := by
  unfold DotDims.rhsIdx
  rw [dif_neg (show ¬(0 : Fin S1024x16.rank) ∈ dot_S1024x16_S1024x16_S1024x1024_1_1_0_0_n_n.rhsBatch by decide),
    dif_pos (show (0 : Fin S1024x16.rank) ∈ dot_S1024x16_S1024x16_S1024x1024_1_1_0_0_n_n.rhsNonContracting by decide)]
  rfl

/-- The [1024, 1024] by [1024, 1024]ᵀ product into zero, at (p, q): the dot product of row p with row q. -/
theorem mm_wide (l r : FVec Ideal S1024x1024 .bf16) (p q : Fin 1024) :
    matmul (F := Ideal) dot_S1024x1024_S1024x1024_S1024x1024_1_1_0_0_n_n none l r
        (constant (F := Ideal) S1024x1024 .f32 0x00000000#32) (ix2 p q)
      = ∑ k : Fin 1024, l (ix2 p k) * r (ix2 q k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact wide_l0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact wide_r0 _ _
      | ⟨1, _⟩ => exact (dot_S1024x1024_S1024x1024_S1024x1024_1_1_0_0_n_n.rhsIdx_val_of_single rfl _ _).trans hk)
  rw [el, er]

/-- The [1024, 16] by [1024, 16]ᵀ product into zero, at (p, q): the rank-16 dot product of row p with row q. -/
theorem mm_thin (l r : FVec Ideal S1024x16 .bf16) (p q : Fin 1024) :
    matmul (F := Ideal) dot_S1024x16_S1024x16_S1024x1024_1_1_0_0_n_n none l r
        (constant (F := Ideal) S1024x1024 .f32 0x00000000#32) (ix2 p q)
      = ∑ k : Fin 16, l (ix2 p k) * r (ix2 q k) := by
  simp only [matmul]
  rw [Ideal.matmul_constant_zero_apply,
    ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q)
      ((contrEquiv1 dot_S1024x16_S1024x16_S1024x1024_1_1_0_0_n_n 16 rfl rfl).symm k) = ix2 p k :=
    funext fun a => Fin.ext (by
      match a with
      | ⟨0, _⟩ => exact thin_l0 _ _
      | ⟨1, _⟩ => exact (dot_S1024x16_S1024x16_S1024x1024_1_1_0_0_n_n.lhsIdx_val_of_single rfl _ _).trans hk)
  have er : dot_S1024x16_S1024x16_S1024x1024_1_1_0_0_n_n.rhsIdx (ix2 p q)
      ((contrEquiv1 dot_S1024x16_S1024x16_S1024x1024_1_1_0_0_n_n 16 rfl rfl).symm k) = ix2 q k :=
    funext fun a => Fin.ext (by
      match a with
      | ⟨0, _⟩ => exact thin_r0 _ _
      | ⟨1, _⟩ => exact (dot_S1024x16_S1024x16_S1024x1024_1_1_0_0_n_n.rhsIdx_val_of_single rfl _ _).trans hk)
  rw [el, er]

/-- One accumulation step at (p, q). -/
theorem pay2_apply (acc : Vec Ideal S1024x1024 .f32) (x w : Vec Ideal S1024x1024 .bf16) (p q : Fin 1024) :
    k0_pay2 (F := Ideal) acc x w (ix2 p q) = acc (ix2 p q) + ∑ k : Fin 1024, x (ix2 p k) * w (ix2 q k) := by
  unfold k0_pay2
  simp only [shapeCast_self]
  exact congrArg (acc (ix2 p q) + ·) (mm_wide x w p q)

/-- The epilogue at (p, q). -/
theorem pay3_apply (xa lb : Vec Ideal S1024x16 .bf16) (acc : Vec Ideal S1024x1024 .f32) (bias : Vec Ideal S1x1024 .f32)
    (p q : Fin 1024) :
    k0_pay3 (F := Ideal) xa lb acc bias (ix2 p q)
      = (acc (ix2 p q) + Ideal.ofBits .f32 0x3F800000#32 * ∑ k : Fin 16, xa (ix2 p k) * lb (ix2 q k))
        + bias (ix2 (0 : Fin 1) q) := by
  unfold k0_pay3
  simp only [shapeCast_self]
  show (acc (ix2 p q) + Ideal.ofBits .f32 0x3F800000#32 * _) + _ = _
  rw [mm_thin xa lb p q, broadcastTo_1b_ab_apply bias broadcasts_S1x1024_S1024x1024 p q]

end Cert.KernelIdeal.Payload

end
-- ==== Proof.Entry.lean ====
/-
  The arrays the kernel region stages, as the host lines before it leave them, and the blocks the grid points read.

  Before the region the program flattens the input to [8192, 4096] (row n of the flattened input is row n % 2048
  of batch n / 2048), adds the two bias vectors and views the sum as one row, rounds the input, the weight and the
  two projections to a narrower float format (the identity at the exact values), and multiplies the flattened
  input by the transposed down projection. At grid position t = 16·i + 4·j + k the windows hold: rows of tile i
  and features of tile k of the flattened input; rows of tile j and features of tile k of the weight; rows of tile
  i of the projected input; rows of tile j of the up projection; columns of tile j of the bias row; and the output
  tile is rows of tile i, columns of tile j.
-/
import proofs.«134948_j39324720562826_2_alg».proof.Proof.Gen.KernelIdeal.Frame
import proofs.«134948_j39324720562826_2_alg».proof.Proof.LoraSpec
import Idealize.ShloMosaic.Lib.Pipeline.Value
import Idealize.ShloMosaic.Lib.StableHlo.Run
import Idealize.ShloMosaic.Lib.Tactic
import Idealize.ShloMosaic.PureOps.Ideal.Laws
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Entry

open Cert.KernelIdeal Cert.KernelIdeal.Gen Idealize.ShloMosaic.ValueIdx Cert.Lora

variable (m : (ℓ : Loc nD τ sig) → Buf (Elt Ideal) ℓ)

/-- The flattened input, the weight, the projected input, the up projection and the bias row, as the region finds them. -/
abbrev X (c : Dev nD) : SX2.Idx → EReal := V m c main_v3
abbrev Wt (c : Dev nD) : SW.Idx → EReal := V m c main_v4
abbrev XA (c : Dev nD) : SXA.Idx → EReal := V m c main_v9
abbrev Bt (c : Dev nD) : SB.Idx → EReal := V m c main_v5
abbrev bias (c : Dev nD) : SBias.Idx → EReal := V m c main_v2

/-- The six arguments. -/
abbrev ax (c : Dev nD) : SX.Idx → EReal := m ((c : Thread nD τ).loc main_arg0)
abbrev aW (c : Dev nD) : SW.Idx → EReal := m ((c : Thread nD τ).loc main_arg1)
abbrev ab (c : Dev nD) : SV.Idx → EReal := m ((c : Thread nD τ).loc main_arg2)
abbrev aA (c : Dev nD) : SA.Idx → EReal := m ((c : Thread nD τ).loc main_arg3)
abbrev aB (c : Dev nD) : SB.Idx → EReal := m ((c : Thread nD τ).loc main_arg4)
abbrev ab' (c : Dev nD) : SV.Idx → EReal := m ((c : Thread nD τ).loc main_arg5)

/-- The flattening reads row n of the flattened input at batch n / 2048, position n % 2048. -/
theorem flatten_apply (x : SX.Idx → EReal) (h : SX.ShapeCasts SX2) (n : Fin 8192) (k : Fin 4096) :
    shapeCast SX2 x h (ix2 n k) = x (rowOf n k) :=
  shapeCast_apply x h _ _ (by
    rw [Shape.rowMajor_val_three, Shape.rowMajor_val_two]
    show (n.val / 2048 * 2048 + n.val % 2048) * 4096 + k.val = n.val * 4096 + k.val
    omega)

theorem X_eq (c : Dev nD) : X m c = fun j => ax m c (rowOf (j 0) (j 1)) := by
  have e : X m c = truncf (F := Ideal) .bf16
      (shapeCast S8192x4096 (ax m c : FVec Ideal S4x2048x4096 .f32) shapeCasts_S4x2048x4096_S8192x4096) bitsLt_bf16_f32 := by
    show StableHlo.after hostOps0 (fun b => m (c, b)) (Proc.devRef .tc main_v3) = _
    after_results; rfl
  rw [e]
  funext j
  rw [eq_ix2 j]
  exact flatten_apply (ax m c) shapeCasts_S4x2048x4096_S8192x4096 (j 0) (j 1)

theorem Wt_eq (c : Dev nD) : Wt m c = aW m c := by
  show StableHlo.after hostOps0 (fun b => m (c, b)) (Proc.devRef .tc main_v4) = _
  after_results; rfl

theorem Bt_eq (c : Dev nD) : Bt m c = aB m c := by
  show StableHlo.after hostOps0 (fun b => m (c, b)) (Proc.devRef .tc main_v5) = _
  after_results; rfl

theorem bias_eq (c : Dev nD) : bias m c = fun j => ab m c (ix1 (j 1)) + ab' m c (ix1 (j 1)) := by
  have e : bias m c = shapeCast S1x4096 (addf (F := Ideal) (φ := .f32) (ab m c) (ab' m c)) shapeCasts_S4096_S1x4096 := by
    show StableHlo.after hostOps0 (fun b => m (c, b)) (Proc.devRef .tc main_v2) = _
    after_results; rfl
  rw [e]
  funext j
  rw [eq_ix2 j]
  exact shapeCast_a_1a_apply (addf (F := Ideal) (φ := .f32) (ab m c) (ab' m c)) shapeCasts_S4096_S1x4096 (j 0) (j 1)

/-! The host product of the flattened input with the transposed down projection, at (n, r). -/

theorem hd_l0 (j : S8192x16.Idx) (q : dot_S8192x4096_S4096x16_S8192x16_1_0_0_1_n_n.contr.Idx) :
    (dot_S8192x4096_S4096x16_S8192x16_1_0_0_1_n_n.lhsIdx j q 0).val = (j 0).val := by
  unfold DotDims.lhsIdx
  rw [dif_neg (show ¬(0 : Fin S8192x4096.rank) ∈ dot_S8192x4096_S4096x16_S8192x16_1_0_0_1_n_n.lhsBatch by decide),
    dif_pos (show (0 : Fin S8192x4096.rank) ∈ dot_S8192x4096_S4096x16_S8192x16_1_0_0_1_n_n.lhsNonContracting by decide)]
  rfl
theorem hd_r1 (j : S8192x16.Idx) (q : dot_S8192x4096_S4096x16_S8192x16_1_0_0_1_n_n.contr.Idx) :
    (dot_S8192x4096_S4096x16_S8192x16_1_0_0_1_n_n.rhsIdx j q 1).val = (j 1).val := by
  unfold DotDims.rhsIdx
  rw [dif_neg (show ¬(1 : Fin S4096x16.rank) ∈ dot_S8192x4096_S4096x16_S8192x16_1_0_0_1_n_n.rhsBatch by decide),
    dif_pos (show (1 : Fin S4096x16.rank) ∈ dot_S8192x4096_S4096x16_S8192x16_1_0_0_1_n_n.rhsNonContracting by decide)]
  rfl

theorem hostdot_apply (L : FVec Ideal S8192x4096 .bf16) (R : FVec Ideal S4096x16 .bf16) (n : Fin 8192) (r : Fin 16) :
    Host.dotGeneral (F := Ideal) dot_S8192x4096_S4096x16_S8192x16_1_0_0_1_n_n none L R (ix2 n r)
      = ∑ k : Fin 4096, L (ix2 n k) * R (ix2 k r) := by
  simp only [Host.dotGeneral]
  rw [Ideal.dotGeneral_apply,
    ← Equiv.sum_comp (contrEquiv1 dot_S8192x4096_S4096x16_S8192x16_1_0_0_1_n_n 4096 rfl rfl).symm]
  refine Finset.sum_congr rfl fun k _ => ?_
  have hk := contrEquiv1_symm_val dot_S8192x4096_S4096x16_S8192x16_1_0_0_1_n_n 4096 rfl rfl k
  have el : dot_S8192x4096_S4096x16_S8192x16_1_0_0_1_n_n.lhsIdx (ix2 n r)
      ((contrEquiv1 dot_S8192x4096_S4096x16_S8192x16_1_0_0_1_n_n 4096 rfl rfl).symm k) = ix2 n k :=
    funext fun a => Fin.ext (by
      match a with
      | ⟨0, _⟩ => exact hd_l0 _ _
      | ⟨1, _⟩ => exact (dot_S8192x4096_S4096x16_S8192x16_1_0_0_1_n_n.lhsIdx_val_of_single rfl _ _).trans hk)
  have er : dot_S8192x4096_S4096x16_S8192x16_1_0_0_1_n_n.rhsIdx (ix2 n r)
      ((contrEquiv1 dot_S8192x4096_S4096x16_S8192x16_1_0_0_1_n_n 4096 rfl rfl).symm k) = ix2 k r :=
    funext fun a => Fin.ext (by
      match a with
      | ⟨0, _⟩ => exact (dot_S8192x4096_S4096x16_S8192x16_1_0_0_1_n_n.rhsIdx_val_of_single rfl _ _).trans hk
      | ⟨1, _⟩ => exact hd_r1 _ _)
  rw [el, er]

theorem XA_eq (c : Dev nD) : XA m c = fun j => ∑ k : Fin 4096, ax m c (rowOf (j 0) k) * aA m c (ix2 (j 1) k) := by
  have e : XA m c = truncf (F := Ideal) .bf16 (Host.dotGeneral (F := Ideal) dot_S8192x4096_S4096x16_S8192x16_1_0_0_1_n_n none
      (truncf (F := Ideal) .bf16
        (shapeCast S8192x4096 (ax m c : FVec Ideal S4x2048x4096 .f32) shapeCasts_S4x2048x4096_S8192x4096) bitsLt_bf16_f32)
      (transpose S4096x16 [1, 0] (truncf (F := Ideal) .bf16 (aA m c : FVec Ideal S16x4096 .f32) bitsLt_bf16_f32)
        transposes_S16x4096_S4096x16_1_0))
      bitsLt_bf16_f32 := by
    show StableHlo.after hostOps0 (fun b => m (c, b)) (Proc.devRef .tc main_v9) = _
    after_results; rfl
  rw [e]
  funext j
  rw [eq_ix2 j]
  refine (hostdot_apply _ _ (j 0) (j 1)).trans (Finset.sum_congr rfl fun k _ => ?_)
  refine congrArg₂ (· * ·) (flatten_apply (ax m c) shapeCasts_S4x2048x4096_S8192x4096 (j 0) k) ?_
  exact transpose_ix2_apply (aA m c) transposes_S16x4096_S4096x16_1_0 k (j 1)

/-- The flattened layer over the staged arrays is the layer of the six arguments at the row's batch and position. -/
theorem flat_staged (c : Dev nD) (n : Fin 8192) (o : Fin 4096) :
    flat (X m c) (Wt m c) (XA m c) (Bt m c) (bias m c) (ix2 n o)
      = layer (ax m c) (aW m c) (ab m c) (aA m c) (aB m c) (ab' m c) (rowOf n o) := by
  rw [X_eq, Wt_eq, XA_eq, Bt_eq, bias_eq]
  exact flat_eq_layer (ax m c) (aW m c) (ab m c) (aA m c) (aB m c) (ab' m c) n o

/-! ## The windows' blocks at a grid position -/

/-- The printed index maps over the grid: position t is row tile t / 16, column tile t / 4 % 4, feature tile t % 4. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem blk_x (c : Dev nD) (t : Fin cfg0.N) (i : Fin 8) (kk : Fin 4) (hi : t.val / 16 = i.val) (hk : t.val % 4 = kk.val)
    (p k : Fin 1024) :
    (iblk m c 0 t : Vec Ideal S1024x1024 .bf16) (ix2 p k) = X m c (ix2 (rowAt i p) (feat kk k)) := by
  obtain ⟨e0, e1, -⟩ := idx_facts t
  unfold iblk
  rw [View.read_apply]
  show V m c main_v3 _ = V m c main_v3 _
  refine congrArg (V m c main_v3) ?_
  funext a; apply Fin.ext
  match a with
  | ⟨0, _⟩ => show win0_0.index t (0 : Fin 2) * 1024 + 1 * p.val = 1024 * i.val + p.val; rw [e0, hi]; omega
  | ⟨1, _⟩ => show win0_0.index t (1 : Fin 2) * 1024 + 1 * k.val = 1024 * kk.val + k.val; rw [e1, hk]; omega

theorem blk_w (c : Dev nD) (t : Fin cfg0.N) (j : Fin 4) (kk : Fin 4) (hj : t.val / 4 % 4 = j.val) (hk : t.val % 4 = kk.val)
    (q k : Fin 1024) :
    (iblk m c 1 t : Vec Ideal S1024x1024 .bf16) (ix2 q k) = Wt m c (ix2 (feat j q) (feat kk k)) := by
  obtain ⟨-, -, e0, e1, -⟩ := idx_facts t
  unfold iblk
  rw [View.read_apply]
  show V m c main_v4 _ = V m c main_v4 _
  refine congrArg (V m c main_v4) ?_
  funext a; apply Fin.ext
  match a with
  | ⟨0, _⟩ => show win0_1.index t (0 : Fin 2) * 1024 + 1 * q.val = 1024 * j.val + q.val; rw [e0, hj]; omega
  | ⟨1, _⟩ => show win0_1.index t (1 : Fin 2) * 1024 + 1 * k.val = 1024 * kk.val + k.val; rw [e1, hk]; omega

theorem blk_xa (c : Dev nD) (t : Fin cfg0.N) (i : Fin 8) (hi : t.val / 16 = i.val) (p : Fin 1024) (r : Fin 16) :
    (iblk m c 2 t : Vec Ideal S1024x16 .bf16) (ix2 p r) = XA m c (ix2 (rowAt i p) r) := by
  obtain ⟨-, -, -, -, e0, e1, -⟩ := idx_facts t
  unfold iblk
  rw [View.read_apply]
  show V m c main_v9 _ = V m c main_v9 _
  refine congrArg (V m c main_v9) ?_
  funext a; apply Fin.ext
  match a with
  | ⟨0, _⟩ => show win0_2.index t (0 : Fin 2) * 1024 + 1 * p.val = 1024 * i.val + p.val; rw [e0, hi]; omega
  | ⟨1, _⟩ => show win0_2.index t (1 : Fin 2) * 16 + 1 * r.val = r.val; rw [e1]; omega

theorem blk_b (c : Dev nD) (t : Fin cfg0.N) (j : Fin 4) (hj : t.val / 4 % 4 = j.val) (q : Fin 1024) (r : Fin 16) :
    (iblk m c 3 t : Vec Ideal S1024x16 .bf16) (ix2 q r) = Bt m c (ix2 (feat j q) r) := by
  obtain ⟨-, -, -, -, -, -, e0, e1, -⟩ := idx_facts t
  unfold iblk
  rw [View.read_apply]
  show V m c main_v5 _ = V m c main_v5 _
  refine congrArg (V m c main_v5) ?_
  funext a; apply Fin.ext
  match a with
  | ⟨0, _⟩ => show win0_3.index t (0 : Fin 2) * 1024 + 1 * q.val = 1024 * j.val + q.val; rw [e0, hj]; omega
  | ⟨1, _⟩ => show win0_3.index t (1 : Fin 2) * 16 + 1 * r.val = r.val; rw [e1]; omega

theorem blk_bias (c : Dev nD) (t : Fin cfg0.N) (j : Fin 4) (hj : t.val / 4 % 4 = j.val) (q : Fin 1024) :
    (iblk m c 4 t : Vec Ideal S1x1024 .f32) (ix2 (0 : Fin 1) q) = bias m c (ix2 (0 : Fin 1) (feat j q)) := by
  obtain ⟨-, -, -, -, -, -, -, -, e0, e1, -⟩ := idx_facts t
  unfold iblk
  rw [View.read_apply]
  show V m c main_v2 _ = V m c main_v2 _
  refine congrArg (V m c main_v2) ?_
  funext a; apply Fin.ext
  match a with
  | ⟨0, _⟩ => show win0_4.index t (0 : Fin 2) * 1 + 1 * 0 = 0; rw [e0]
  | ⟨1, _⟩ => show win0_4.index t (1 : Fin 2) * 1024 + 1 * q.val = 1024 * j.val + q.val; rw [e1, hj]; omega

end Cert.KernelIdeal.Entry

end
-- ==== Proof.Blocks.lean ====
/-
  From the output tiles to the kernel program's result.

  The output tile (i, j) is written once, at the last feature tile, and holds the epilogue over the four
  accumulation steps from zero: entry (p, q) of it is the flattened layer at row 1024·i + p, column 1024·j + q
  (the four partial sums over 1024 features each are the sum over all 4096 features). The 32 tiles cover the
  [8192, 4096] result, so after the region it is the flattened layer; the one host line after the region views it
  as [4, 2048, 4096], which is the layer itself.
-/
import proofs.«134948_j39324720562826_2_alg».proof.Proof.Pieces
import proofs.«134948_j39324720562826_2_alg».proof.Proof.Payload
import proofs.«134948_j39324720562826_2_alg».proof.Proof.Entry

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Lora
open Cert.KernelIdeal.Entry Cert.KernelIdeal.Payload Cert.KernelIdeal.Pieces

variable (m : (ℓ : Loc nD τ sig) → Buf (Elt Ideal) ℓ) (ρ : Dev nD → PrngReg)

/-- The epilogue over four accumulation steps from zero, at (p, q): the four partial dot products added to zero in
    order, then the scaled rank-16 dot product, then the bias entry. -/
theorem tile_value (xA wA xB wB xC wC xD wD : Vec Ideal S1024x1024 .bf16) (xa lb : Vec Ideal S1024x16 .bf16)
    (bs : Vec Ideal S1x1024 .f32) (p q : Fin 1024) :
    k0_pay3 (F := Ideal) xa lb (k0_pay2 (k0_pay2 (k0_pay2 (k0_pay2 k0_pay1 xA wA) xB wB) xC wC) xD wD) bs (ix2 p q)
      = ((((0 + ∑ k : Fin 1024, xA (ix2 p k) * wA (ix2 q k)) + ∑ k : Fin 1024, xB (ix2 p k) * wB (ix2 q k))
            + ∑ k : Fin 1024, xC (ix2 p k) * wC (ix2 q k)) + ∑ k : Fin 1024, xD (ix2 p k) * wD (ix2 q k)
          + one * ∑ r : Fin 16, xa (ix2 p r) * lb (ix2 q r))
        + bs (ix2 (0 : Fin 1) q) := by
  rw [pay3_apply, pay2_apply, pay2_apply, pay2_apply, pay2_apply, pay1_apply]

/-- The same when the eleven blocks are the tiles of five whole arrays: rows of tile i and the four feature tiles of
    `Xf`, rows of tile j of `Wf`, rows of tile i of `XAf`, rows of tile j of `Bf`, columns of tile j of `bf`.
    The value is then the flattened layer of the whole arrays at row 1024·i + p, column 1024·j + q. -/
theorem tile_flat (Xf : SX2.Idx → EReal) (Wf : SW.Idx → EReal) (XAf : SXA.Idx → EReal) (Bf : SB.Idx → EReal)
    (bf : SBias.Idx → EReal) (i : Fin 8) (j : Fin 4)
    (xA wA xB wB xC wC xD wD : Vec Ideal S1024x1024 .bf16) (xa lb : Vec Ideal S1024x16 .bf16)
    (bs : Vec Ideal S1x1024 .f32) (p q : Fin 1024)
    (hxA : ∀ k, xA (ix2 p k) = Xf (ix2 (rowAt i p) (feat 0 k))) (hwA : ∀ k, wA (ix2 q k) = Wf (ix2 (feat j q) (feat 0 k)))
    (hxB : ∀ k, xB (ix2 p k) = Xf (ix2 (rowAt i p) (feat 1 k))) (hwB : ∀ k, wB (ix2 q k) = Wf (ix2 (feat j q) (feat 1 k)))
    (hxC : ∀ k, xC (ix2 p k) = Xf (ix2 (rowAt i p) (feat 2 k))) (hwC : ∀ k, wC (ix2 q k) = Wf (ix2 (feat j q) (feat 2 k)))
    (hxD : ∀ k, xD (ix2 p k) = Xf (ix2 (rowAt i p) (feat 3 k))) (hwD : ∀ k, wD (ix2 q k) = Wf (ix2 (feat j q) (feat 3 k)))
    (hxa : ∀ r, xa (ix2 p r) = XAf (ix2 (rowAt i p) r)) (hlb : ∀ r, lb (ix2 q r) = Bf (ix2 (feat j q) r))
    (hbs : bs (ix2 (0 : Fin 1) q) = bf (ix2 (0 : Fin 1) (feat j q))) :
    k0_pay3 (F := Ideal) xa lb (k0_pay2 (k0_pay2 (k0_pay2 (k0_pay2 k0_pay1 xA wA) xB wB) xC wC) xD wD) bs (ix2 p q)
      = flat Xf Wf XAf Bf bf (ix2 (rowAt i p) (feat j q)) := by
  rw [tile_value]
  simp only [hxA, hwA, hxB, hwB, hxC, hwC, hxD, hwD, hxa, hlb, hbs]
  exact flat_tiles Xf Wf XAf Bf bf i j p q

/-- The staged arrays' flattened layer: what the region's result array ends holding. -/
abbrev flatOf (c : Dev nD) : SX2.Idx → EReal := flat (X m c) (Wt m c) (XA m c) (Bt m c) (bias m c)

/-- What a writing position writes back is its tile of the flattened layer. -/
theorem flushed_eq (c : Dev nD) (t : Fin cfg0.N) (hf : (cfg0.win 5).flush t = true) :
    (dats m 0 c).flushed 5 t = ((cfg0.win 5).blk t).view.read (Elt Ideal) (flatOf m c) := by
  have hcN : cfg0.N = 128 := N_0
  have hN : t.val < 128 := lt_of_lt_of_eq t.isLt hcN
  have h3 : t.val % 4 = 3 := (flush0_5 t).mp hf
  obtain ⟨i, hi⟩ : ∃ i : Fin 8, t.val / 16 = i.val := ⟨⟨t.val / 16, by omega⟩, rfl⟩
  obtain ⟨j, hj⟩ : ∃ j : Fin 4, t.val / 4 % 4 = j.val := ⟨⟨t.val / 4 % 4, by omega⟩, rfl⟩
  obtain ⟨t0, ht0⟩ : ∃ t0 : Fin cfg0.N, t0.val = t.val - 3 := ⟨⟨t.val - 3, by omega⟩, rfl⟩
  obtain ⟨t1, ht1⟩ : ∃ t1 : Fin cfg0.N, t1.val = t.val - 2 := ⟨⟨t.val - 2, by omega⟩, rfl⟩
  obtain ⟨t2, ht2⟩ : ∃ t2 : Fin cfg0.N, t2.val = t.val - 1 := ⟨⟨t.val - 1, by omega⟩, rfl⟩
  obtain ⟨e50, e51⟩ : win0_5.index t (0 : Fin 2) = t.val / 16 ∧ win0_5.index t (1 : Fin 2) = t.val / 4 % 4 := by
    obtain ⟨-, -, -, -, -, -, -, -, -, -, a, b⟩ := idx_facts t; exact ⟨a, b⟩
  show (cfg0.win 5).cut (grid0.coords t) ((dats m 0 c).after 5 t) = _
  rw [after0_5, out_four m c t0 t1 t2 t (by omega) (by omega) (by omega) (by omega)]
  funext y
  obtain ⟨p, q, rfl⟩ : ∃ (p q : Fin 1024), y = ix2 p q := ⟨y 0, y 1, eq_ix2 y⟩
  rw [View.read_apply]
  have hemb : ((cfg0.win 5).blk t).view.emb (ix2 p q) = ix2 (rowAt i p) (feat j q) := by
    funext a; apply Fin.ext
    match a with
    | ⟨0, _⟩ => show win0_5.index t (0 : Fin 2) * 1024 + 1 * p.val = 1024 * i.val + p.val; rw [e50, hi]; omega
    | ⟨1, _⟩ => show win0_5.index t (1 : Fin 2) * 1024 + 1 * q.val = 1024 * j.val + q.val; rw [e51, hj]; omega
  show _ = flatOf m c (((cfg0.win 5).blk t).view.emb (ix2 p q))
  rw [hemb]
  exact tile_flat (X m c) (Wt m c) (XA m c) (Bt m c) (bias m c) i j
    (iblk m c 0 t0) (iblk m c 1 t0) (iblk m c 0 t1) (iblk m c 1 t1) (iblk m c 0 t2) (iblk m c 1 t2)
    (iblk m c 0 t) (iblk m c 1 t) (iblk m c 2 t) (iblk m c 3 t) (iblk m c 4 t) p q
    (fun k => blk_x m c t0 i 0 (by omega) (by show t0.val % 4 = 0; omega) p k)
    (fun k => blk_w m c t0 j 0 (by omega) (by show t0.val % 4 = 0; omega) q k)
    (fun k => blk_x m c t1 i 1 (by omega) (by show t1.val % 4 = 1; omega) p k)
    (fun k => blk_w m c t1 j 1 (by omega) (by show t1.val % 4 = 1; omega) q k)
    (fun k => blk_x m c t2 i 2 (by omega) (by show t2.val % 4 = 2; omega) p k)
    (fun k => blk_w m c t2 j 2 (by omega) (by show t2.val % 4 = 2; omega) q k)
    (fun k => blk_x m c t i 3 hi (by show t.val % 4 = 3; omega) p k)
    (fun k => blk_w m c t j 3 hj (by show t.val % 4 = 3; omega) q k)
    (fun r => blk_xa m c t i hi p r) (fun r => blk_b m c t j hj q r) (blk_bias m c t j hj q)

/-- An index of the result array is in position t's tile iff each coordinate is in the tile's range. -/
theorem mem_tile (t : Fin cfg0.N) (n : S8192x4096.Idx) :
    n ∈ ((cfg0.win 5).blk t).view.set ↔ ∀ a : Fin 2, win0_5.index t a * S1024x1024.size a ≤ (n a).val
      ∧ (n a).val < win0_5.index t a * S1024x1024.size a + S1024x1024.size a := by
  show n ∈ ((View.whole main_v10).slice (win0_5.rect t)).set ↔ _
  rw [View.set_slice_whole, Rect.mem_set_unit]
  exact Iff.rfl

/-- Every entry of the result array is in the tile of the writing position of its row tile and column tile. -/
theorem covered (n : S8192x4096.Idx) :
    ∃ t : Fin cfg0.N, (cfg0.win 5).flush t = true ∧ n ∈ ((cfg0.win 5).blk t).view.set := by
  have hcN : cfg0.N = 128 := N_0
  have h0 : (n 0).val < 8192 := (n 0).isLt
  have h1 : (n 1).val < 4096 := (n 1).isLt
  obtain ⟨t, ht⟩ : ∃ t : Fin cfg0.N, t.val = 16 * ((n 0).val / 1024) + 4 * ((n 1).val / 1024) + 3 :=
    ⟨⟨16 * ((n 0).val / 1024) + 4 * ((n 1).val / 1024) + 3, by omega⟩, rfl⟩
  obtain ⟨e50, e51⟩ : win0_5.index t (0 : Fin 2) = t.val / 16 ∧ win0_5.index t (1 : Fin 2) = t.val / 4 % 4 := by
    obtain ⟨-, -, -, -, -, -, -, -, -, -, a, b⟩ := idx_facts t; exact ⟨a, b⟩
  refine ⟨t, (flush0_5 t).mpr (by omega), ?_⟩
  rw [mem_tile]
  intro a
  match a with
  | ⟨0, _⟩ =>
    show win0_5.index t (0 : Fin 2) * 1024 ≤ (n 0).val ∧ (n 0).val < win0_5.index t (0 : Fin 2) * 1024 + 1024
    rw [e50]; omega
  | ⟨1, _⟩ =>
    show win0_5.index t (1 : Fin 2) * 1024 ≤ (n 1).val ∧ (n 1).val < win0_5.index t (1 : Fin 2) * 1024 + 1024
    rw [e51]; omega

/-- After the region the result array is the flattened layer over the staged arrays. -/
theorem region_result (c : Dev nD) : (dats m 0 c).arrAt 5 cfg0.N = flatOf m c :=
  (dats m 0 c).arrAt_eq_of_cover 5 (flatOf m c) (flushed_eq m c) covered

/-- The program's result: the layer of the six arguments. -/
abbrev result (c : Dev nD) : SX.Idx → EReal :=
  layer (ax m c) (aW m c) (ab m c) (aA m c) (aB m c) (ab' m c)

/-- The view of the flattened layer as [4, 2048, 4096] is the layer. -/
theorem unflatten (c : Dev nD) (h : SX2.ShapeCasts SX) : shapeCast SX (flatOf m c) h = result m c := by
  funext s
  obtain ⟨a, b, o, rfl⟩ : ∃ (a : Fin 4) (b : Fin 2048) (o : Fin 4096), s = ix3 a b o := ⟨s 0, s 1, s 2, eq_ix3 s⟩
  obtain ⟨n, hn⟩ : ∃ n : Fin 8192, n.val = a.val * 2048 + b.val := ⟨⟨a.val * 2048 + b.val, by omega⟩, rfl⟩
  have e : shapeCast SX (flatOf m c) h (ix3 a b o) = flatOf m c (ix2 n o) :=
    shapeCast_apply (flatOf m c) h (ix3 a b o) (ix2 n o) (by
      rw [Shape.rowMajor_val_three, Shape.rowMajor_val_two]
      show n.val * 4096 + o.val = (a.val * 2048 + b.val) * 4096 + o.val
      rw [hn])
  rw [e]
  refine (flat_staged m c n o).trans (congrArg (result m c) ?_)
  funext d; apply Fin.ext
  match d with
  | ⟨0, _⟩ => show n.val / 2048 = a.val; omega
  | ⟨1, _⟩ => show n.val % 2048 = b.val; omega
  | ⟨2, _⟩ => rfl

/-- The host line after the region leaves the layer in the program's result buffer. -/
theorem tail_result (c : Dev nD) :
    Pipeline.afterTail₀ cfgs (dats m) 0 (V0 m) [hostOps1] c main_v11 = result m c := by
  unfold Pipeline.afterTail₀
  show StableHlo.after hostOps1 _ (Proc.devRef .tc main_v11) = _
  after_results
  have hw : Pipeline.withArrays (cfgs 0).spec c (V0 m c) (fun w => (dats m 0 c).arrAt w (cfgs 0).N)
      (Proc.devRef .tc main_v10) = flatOf m c :=
    (Pipeline.withArrays_arr spec0 launch0.win.arr_inj c _ _ 5).trans (region_result m c)
  refine Eq.trans ?_ (unflatten m c shapeCasts_S8192x4096_S4x2048x4096)
  show shapeCast SX (Pipeline.withArrays (cfgs 0).spec c (V0 m c) (fun w => (dats m 0 c).arrAt w (cfgs 0).N)
      (Proc.devRef .tc main_v10)) shapeCasts_S8192x4096_S4x2048x4096 = _
  rw [hw]

/-- The kernel program's run, read: every execution ends with the layer of the six arguments in the result buffer
    and the arguments as they were. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v11 (Pipeline.mem_restRefs_of main_v11 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Blocks

end
-- ==== Proof.lean ====
/-
  The kernel program and its reference compute the same linear layer with a rank-16 correction.

  Both programs, read at the exact (extended-real) values, end with

      y (s,t,o) = ( ∑ k, x (s,t,k) · W (o,k)  +  one · ∑ r, (∑ k, x (s,t,k) · A (r,k)) · B (o,r) )  +  (b o + b' o)

  in their result buffers (`Cert.Lora.layer`). The reference computes it by three whole contractions on the
  host. The kernel program flattens the input to 8192 rows, projects it down to rank 16 on the host, and then runs
  a grid of 8 row tiles by 4 column tiles by 4 feature tiles: an accumulator is zeroed at the first feature
  tile, a partial product over 1024 features is added at each of the four, and at the last one the output tile is
  written from the accumulator, the scaled low-rank product and the bias row. The four partial sums are the sum
  over all 4096 features by associativity and commutativity of the addition alone, so nothing is asked of the
  inputs beyond what the frames need; changes of float format are the identity at these values.

  The two word-level frames and the idealized kernel's frame are the generated frame run; the reference's frame
  is its generated run with the result dropped; the idealization rewrote nothing.
-/
import proofs.«134948_j39324720562826_2_alg».proof.Defs
import proofs.«134948_j39324720562826_2_alg».proof.Proof.Gen.Kernel
import proofs.«134948_j39324720562826_2_alg».proof.Proof.Gen.Kernel.Skeleton
import proofs.«134948_j39324720562826_2_alg».proof.Proof.Gen.Kernel.Launch
import proofs.«134948_j39324720562826_2_alg».proof.Proof.Gen.Kernel.Points
import proofs.«134948_j39324720562826_2_alg».proof.Proof.Gen.Kernel.Frame
import proofs.«134948_j39324720562826_2_alg».proof.Proof.Gen.KernelIdeal
import proofs.«134948_j39324720562826_2_alg».proof.Proof.Gen.KernelIdeal.Skeleton
import proofs.«134948_j39324720562826_2_alg».proof.Proof.Gen.KernelIdeal.Launch
import proofs.«134948_j39324720562826_2_alg».proof.Proof.Gen.KernelIdeal.Points
import proofs.«134948_j39324720562826_2_alg».proof.Proof.Gen.KernelIdeal.Frame
import proofs.«134948_j39324720562826_2_alg».proof.Proof.Gen.ReferenceIdeal
import proofs.«134948_j39324720562826_2_alg».proof.Proof.Gen.ReferenceIdeal.Run
import proofs.«134948_j39324720562826_2_alg».proof.Proof.Gen.ReferenceIdeal.Read
import proofs.«134948_j39324720562826_2_alg».proof.Proof.Gen.Pre_finite_inputs
import proofs.«134948_j39324720562826_2_alg».proof.Proof.RefSide
import proofs.«134948_j39324720562826_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- From arguments that agree both programs end with the layer of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq]
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
